-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x64 : Shape := ⟨2, ![256, 64]⟩
abbrev S64 : Shape := ⟨1, ![64]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x256 .f32) (main_arg1 : FVec F S256x64 .f32) (main_arg2 : FVec F S64 .f32) (main_arg3 : IVec S800000 32) (main_arg4 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x256 : Shape := ⟨2, ![50000, 256]⟩
abbrev S256x64 : Shape := ⟨2, ![256, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S5000x256 : Shape := ⟨2, ![5000, 256]⟩
abbrev S5000x1 : Shape := ⟨2, ![5000, 1]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 47
  | .vmem => 14
  | .smem => 0
  | _ => 0

abbrev bufTy : (tb : Table) → Fin (tcTables nBuf tb) → BufTy
  | .hbm, ⟨0, _⟩ => ⟨S50000x256, .f32⟩
  | .hbm, ⟨1, _⟩ => ⟨S256x64, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x64, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S50000x1, .f32⟩
  | .hbm, ⟨45, _⟩ => ⟨S1x64, .f32⟩
  | .hbm, ⟨46, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_6 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  scatter_S50000_S800000x1_S800000_n_0_0_1_wf : ScatterDims.WF S50000 S800000x1 S800000 [] [0] [0] 1
  dot_S5000x256_S256x64_S5000x64_1_0_0_1_n_n_wf : DotDims.WF S5000x256 S256x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S256x64 : Shape := ⟨2, ![256, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 52
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x64, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x256, .f32⟩
  | .hbm, ⟨28, _⟩ => ⟨S50000x256, .f32⟩
  | .hbm, ⟨29, _⟩ => ⟨S50000x64, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .f32⟩
  | .hbm, ⟨39, _⟩ => ⟨S_, .f32⟩
  | .hbm, ⟨40, _⟩ => ⟨S50000x64, .f32⟩
  | .hbm, ⟨41, _⟩ => ⟨S800000x1, .i32⟩
  | .hbm, ⟨42, _⟩ => ⟨S50000x64, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S50000x64, .f32⟩
  | .hbm, ⟨48, _⟩ => ⟨S50000x64, .f32⟩
  | .hbm, ⟨49, _⟩ => ⟨S1x64, .f32⟩
  | .hbm, ⟨50, _⟩ => ⟨S50000x64, .f32⟩
  | .hbm, ⟨51, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel program's run with its result named.

  The program is eight segments: five stretches of host operations, the projection region, one more stretch, and
  the rescaling region. Every weakly fair execution ends with every unscoped buffer at the contents `W8` the fold
  through the segments ends at. Read at the result buffer, that is what the rescaling region's write-backs leave in
  its output array when the region is entered at the contents `V7`; read at the five arguments, it is the launch
  memory (no segment writes an argument).
-/
import proofs.«113959_j51161650430038_1_alg».proof.Proof.KernelRunAll

noncomputable section

namespace Cert.KernelIdeal.RunValue

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The run with the result named: the program ends with its result buffer holding what the rescaling region's
    write-backs leave in that region's output array, and with its arguments as launched. -/
theorem run_named : θ_run defs (onTc (τ := τ) (main (F := F))) ⟨m, fun _ => 0, ρ⟩ (fun r => ∀ c : Dev nD,
      r.2.mem ((c.tc : Thread nD τ).loc main_v27) = (dat1 (V7 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨(h c _ (mem_uc main_v27 (by decide))).trans (W8_arr m ρ c 3),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)
    (GenP.run_all m ρ)

end Cert.KernelIdeal.RunValue

end
-- ==== Proof.HostReads.lean ====
/-
  The buffers the two regions are entered with, read back through the host stretches to the launch memory.

  `deg idx` is the degree factor of an index vector: the count of each node among the indices (a scatter-add of ones
  into zeros), clipped below at one, raised to the power −1/2. `sel x` is the gather's index column (a negative index
  counted from the end). `agg h x3 x4` gathers the rows of h named by the source indices and scatter-adds them into
  zeros at the destination indices. The projection region is entered with the features and the weights as
  launched and with the source-side degree factor as a one-column matrix; the rescaling region with the aggregate
  of the projection region's result, the destination-side degree factor as a one-column matrix, and the bias as a
  one-row matrix.
-/
import proofs.«113959_j51161650430038_1_alg».proof.Proof.Gen.KernelIdeal.Frame
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.Pipeline (Dat)

variable {F : FTy → Type} [FloatOps F]

/-- The degree factor of an index vector. -/
def deg (idx : (⟨S800000, .i32⟩ : BufTy).Contents (Elt F)) : (⟨S50000, .f32⟩ : BufTy).Contents (Elt F) :=
  Host.powf (maximumf (broadcastInDim S50000 ![] bcast_S_S50000 (id (constant S_ .f32 0x3F800000#32)))
      (Host.scatterAdd scatter_S50000_S800000x1_S800000_n_0_0_1 (broadcastInDim S50000 ![] bcast_S_S50000 (constant S_ .f32 0x00000000#32))
        (broadcastInDim S800000x1 ![0] bcast_S800000_S800000x1_0 idx) (broadcastInDim S800000 ![] bcast_S_S800000 (constant S_ .f32 0x3F800000#32))))
    (broadcastInDim S50000 ![] bcast_S_S50000 (constant S_ .f32 0xBF000000#32))

/-- The gather's index column: a negative index is counted from the end. -/
def sel (x3 : (⟨S800000, .i32⟩ : BufTy).Contents (Elt F)) : (⟨S800000x1, .i32⟩ : BufTy).Contents (Elt F) :=
  broadcastInDim S800000x1 ![0] bcast_S800000_S800000x1_0
    (select (cmpi .slt x3 (broadcastInDim S800000 ![] bcast_S_S800000 (constantI S_ 32 0#32)))
      (addi x3 (broadcastInDim S800000 ![] bcast_S_S800000 (constantI S_ 32 50000#32))) x3)

/-- Gather the rows of `h` at the source indices and scatter-add them into zeros at the destination indices. -/
def agg (h : (⟨S50000x64, .f32⟩ : BufTy).Contents (Elt F)) (x3 x4 : (⟨S800000, .i32⟩ : BufTy).Contents (Elt F)) :
    (⟨S50000x64, .f32⟩ : BufTy).Contents (Elt F) :=
  Host.scatterAdd scatter_S50000x64_S800000x1_S800000x64_1_0_0_1 (broadcastInDim S50000x64 ![] bcast_S_S50000x64 (constant S_ .f32 0x00000000#32))
    (broadcastInDim S800000x1 ![0] bcast_S800000_S800000x1_0 x4)
    (Host.gather gather_S50000x64_S800000x1_S800000x64_1_0_n_n_0_1_164 h (sel x3))

variable (m : (ℓ : Loc nD τ sig) → Buf (Elt F) ℓ) (ρ : Dev nD → PrngReg)

/-! ## The projection region's entry contents -/

theorem V5_arg0 (c : Dev nD) : V5 m ρ c main_arg0 = m ((c : Thread nD τ).loc main_arg0) := by
  show StableHlo.after hostOps0_4 (StableHlo.after hostOps0_3 (StableHlo.after hostOps0_2 (StableHlo.after hostOps0_1
    (StableHlo.after hostOps0 (W0 m ρ c))))) (Proc.devRef .tc main_arg0) = _
  after_results

theorem V5_arg1 (c : Dev nD) : V5 m ρ c main_arg1 = m ((c : Thread nD τ).loc main_arg1) := by
  show StableHlo.after hostOps0_4 (StableHlo.after hostOps0_3 (StableHlo.after hostOps0_2 (StableHlo.after hostOps0_1
    (StableHlo.after hostOps0 (W0 m ρ c))))) (Proc.devRef .tc main_arg1) = _
  after_results

theorem V5_v13 (c : Dev nD) :
    V5 m ρ c main_v13 = shapeCast S50000x1 (deg (m ((c : Thread nD τ).loc main_arg3))) shapeCasts_S50000_S50000x1 := by
  show StableHlo.after hostOps0_4 (StableHlo.after hostOps0_3 (StableHlo.after hostOps0_2 (StableHlo.after hostOps0_1
    (StableHlo.after hostOps0 (W0 m ρ c))))) (Proc.devRef .tc main_v13) = _
  after_results
  rfl

/-! ## What the projection region leaves, and what it does not touch -/

/-- After the projection region its result buffer holds what the region's write-backs leave in its output array. -/
theorem W6_v14 (c : Dev nD) : W6 m ρ c (Proc.devRef .tc main_v14) = (dat0 (V5 m ρ) c).arrAt 3 cfg0.N :=
  W6_arr m ρ c 3

/-- A buffer that is none of the projection region's four arrays is as at the region's entry, and if no host
    operation before the region writes it either, as launched. -/
theorem W6_arg3 (c : Dev nD) : W6 m ρ c (Proc.devRef .tc main_arg3) = m ((c : Thread nD τ).loc main_arg3) := by
  rw [W6_of_ne m ρ c main_arg3 (by decide)]
  show StableHlo.after hostOps0_4 (StableHlo.after hostOps0_3 (StableHlo.after hostOps0_2 (StableHlo.after hostOps0_1
    (StableHlo.after hostOps0 (W0 m ρ c))))) (Proc.devRef .tc main_arg3) = _
  after_results

theorem W6_arg4 (c : Dev nD) : W6 m ρ c (Proc.devRef .tc main_arg4) = m ((c : Thread nD τ).loc main_arg4) := by
  rw [W6_of_ne m ρ c main_arg4 (by decide)]
  show StableHlo.after hostOps0_4 (StableHlo.after hostOps0_3 (StableHlo.after hostOps0_2 (StableHlo.after hostOps0_1
    (StableHlo.after hostOps0 (W0 m ρ c))))) (Proc.devRef .tc main_arg4) = _
  after_results

theorem W6_arg2 (c : Dev nD) : W6 m ρ c (Proc.devRef .tc main_arg2) = m ((c : Thread nD τ).loc main_arg2) := by
  rw [W6_of_ne m ρ c main_arg2 (by decide)]
  show StableHlo.after hostOps0_4 (StableHlo.after hostOps0_3 (StableHlo.after hostOps0_2 (StableHlo.after hostOps0_1
    (StableHlo.after hostOps0 (W0 m ρ c))))) (Proc.devRef .tc main_arg2) = _
  after_results

/-- The destination-side degree factor, computed before the projection region, is still there after it. -/
theorem W6_v12 (c : Dev nD) : W6 m ρ c (Proc.devRef .tc main_v12) = deg (m ((c : Thread nD τ).loc main_arg4)) := by
  rw [W6_of_ne m ρ c main_v12 (by decide)]
  show StableHlo.after hostOps0_4 (StableHlo.after hostOps0_3 (StableHlo.after hostOps0_2 (StableHlo.after hostOps0_1
    (StableHlo.after hostOps0 (W0 m ρ c))))) (Proc.devRef .tc main_v12) = _
  after_results
  rfl

/-! ## The rescaling region's entry contents -/

/-- The aggregate, over what the projection region's exit contents hold at its three operands. -/
theorem V7_v24_exit (c : Dev nD) :
    V7 m ρ c main_v24 = agg (W6 m ρ c (Proc.devRef .tc main_v14)) (W6 m ρ c (Proc.devRef .tc main_arg3)) (W6 m ρ c (Proc.devRef .tc main_arg4)) := by
  show StableHlo.after hostOps1 (W6 m ρ c) (Proc.devRef .tc main_v24) = _
  after_results
  rfl

theorem V7_v24 (c : Dev nD) :
    V7 m ρ c main_v24 = agg ((dat0 (V5 m ρ) c).arrAt 3 cfg0.N) (m ((c : Thread nD τ).loc main_arg3)) (m ((c : Thread nD τ).loc main_arg4)) := by
  rw [V7_v24_exit, W6_v14, W6_arg3, W6_arg4]

theorem V7_v25 (c : Dev nD) :
    V7 m ρ c main_v25 = shapeCast S50000x1 (deg (m ((c : Thread nD τ).loc main_arg4))) shapeCasts_S50000_S50000x1 := by
  show StableHlo.after hostOps1 (W6 m ρ c) (Proc.devRef .tc main_v25) = _
  after_results
  rw [W6_v12]
  rfl

theorem V7_v26 (c : Dev nD) :
    V7 m ρ c main_v26 = shapeCast S1x64 (m ((c : Thread nD τ).loc main_arg2)) shapeCasts_S64_S1x64 := by
  show StableHlo.after hostOps1 (W6 m ρ c) (Proc.devRef .tc main_v26) = _
  after_results
  rw [W6_arg2]
  rfl

end Cert.KernelIdeal.HostValue

end
-- ==== Proof.Spec.lean ====
/-
  The two dense stages of the graph convolution as whole-array functions, at the ideal values.

  `proj x w d` : node p's feature row, scaled by that node's degree factor d(p), times the weight matrix:
      proj(p, q) = ∑ k, (x(p, k) · d(p)) · w(k, q).
  `post r d b` : the aggregated rows rescaled by the node's degree factor, plus the bias row:
      post(p, q) = r(p, q) · d(p) + b(q).
  The degree factor is carried as a one-column matrix and the bias as a one-row matrix, as both programs carry them.
-/
import Idealize.ShloMosaic.PureOps.Ideal
import Idealize.ShloMosaic.Lib.ValueIdx

noncomputable section

namespace Cert.GraphConv

open Idealize.ShloMosaic Idealize.ShloMosaic.ValueIdx

/-- Scale each node's feature row by its degree factor, then project by the weight matrix. -/
def proj (x : FVec Ideal ⟨2, ![50000, 256]⟩ .f32) (w : FVec Ideal ⟨2, ![256, 64]⟩ .f32)
    (d : FVec Ideal ⟨2, ![50000, 1]⟩ .f32) : FVec Ideal ⟨2, ![50000, 64]⟩ .f32 :=
  fun i => ∑ k : Fin 256, (x (ix2 (i 0) k) * d (ix2 (i 0) (0 : Fin 1))) * w (ix2 k (i 1))

theorem proj_apply (x : FVec Ideal ⟨2, ![50000, 256]⟩ .f32) (w : FVec Ideal ⟨2, ![256, 64]⟩ .f32)
    (d : FVec Ideal ⟨2, ![50000, 1]⟩ .f32) (p : Fin 50000) (q : Fin 64) :
    proj x w d (ix2 p q) = ∑ k : Fin 256, (x (ix2 p k) * d (ix2 p (0 : Fin 1))) * w (ix2 k q) := rfl

/-- Rescale each aggregated row by its node's degree factor and add the bias row. -/
def post (r : FVec Ideal ⟨2, ![50000, 64]⟩ .f32) (d : FVec Ideal ⟨2, ![50000, 1]⟩ .f32)
    (b : FVec Ideal ⟨2, ![1, 64]⟩ .f32) : FVec Ideal ⟨2, ![50000, 64]⟩ .f32 :=
  fun i => r i * d (ix2 (i 0) (0 : Fin 1)) + b (ix2 (0 : Fin 1) (i 1))

theorem post_apply (r : FVec Ideal ⟨2, ![50000, 64]⟩ .f32) (d : FVec Ideal ⟨2, ![50000, 1]⟩ .f32)
    (b : FVec Ideal ⟨2, ![1, 64]⟩ .f32) (p : Fin 50000) (q : Fin 64) :
    post r d b (ix2 p q) = r (ix2 p q) * d (ix2 p (0 : Fin 1)) + b (ix2 (0 : Fin 1) q) := rfl

end Cert.GraphConv

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.ProjValue.lean ====
/-
  The projection region as one whole-array function.

  The region's grid has ten points; point t stages rows 5000·t … 5000·t + 4999 of the feature matrix and of the
  degree column, the whole weight matrix, and writes back the same rows of the result. The body scales each staged
  feature row by its degree factor and multiplies by the weight matrix into a zero accumulator; at the ideal values
  the change of float format on the way into the product is the identity and the product is the plain sum over the
  contracted coordinate. So what point t writes back is block t of `proj` of the three arrays, the ten blocks cover
  the result, and the result array after the region is `proj` of the arrays the region was entered with.
-/
import proofs.«113959_j51161650430038_1_alg».proof.Proof.Gen.KernelIdeal.Frame
import proofs.«113959_j51161650430038_1_alg».proof.Proof.Spec
import proofs.«113959_j51161650430038_1_alg».proof.Proof.LibMatmulPlain
import Idealize.ShloMosaic.Lib.Pipeline.Value
import Idealize.ShloMosaic.Lib.ValueIdx
import Idealize.ShloMosaic.Lib.ValueLayout

noncomputable section

namespace Cert.KernelIdeal.ProjValue

open Cert.KernelIdeal Cert.KernelIdeal.Gen
open Idealize.ShloMosaic Idealize.ShloMosaic.TcCoe Idealize.ShloMosaic.ValueIdx Idealize.SL.Sem
open Idealize.ShloMosaic.Pipeline (Dat)

/-- A one-column block broadcast along its rows reads, at (p, k), the column's entry for row p. -/
theorem bcast_col_apply (v : FVec Ideal S5000x1 .f32) (p : Fin 5000) (k : Fin 256) :
    broadcastTo S5000x256 v broadcasts_S5000x1_S5000x256 (ix2 p k) = v (ix2 p (0 : Fin 1)) := by
  refine broadcastTo_apply v broadcasts_S5000x1_S5000x256 (ix2 p k) (ix2 p (0 : Fin 1)) fun ax => ?_
  match ax with
  | ⟨0, _⟩ =>
    show p.val = if (5000 : Nat) = 1 then 0 else p.val
    rw [if_neg (by decide)]
  | ⟨1, _⟩ =>
    show (0 : Nat) = if (1 : Nat) = 1 then 0 else k.val
    rw [if_pos rfl]

/-- The body's stored value at row p and column q of the block: the sum over k of the scaled feature entry times the
    weight entry. -/
theorem pay_apply (x0 : Vec Ideal S5000x256 .f32) (x1 : Vec Ideal S5000x1 .f32) (x2 : Vec Ideal S256x64 .f32)
    (p : Fin 5000) (q : Fin 64) :
    k0_pay1 x0 x1 x2 (ix2 p q) = ∑ k : Fin 256, (x0 (ix2 p k) * x1 (ix2 p (0 : Fin 1))) * x2 (ix2 k q) := by
  unfold k0_pay1
  refine (Cert.LibMatmulPlain.matmul_plain_zero_apply none _ _ p q).trans ?_
  refine Finset.sum_congr rfl fun k _ => ?_
  show (x0 (ix2 p k) * broadcastTo S5000x256 (shapeCast S5000x1 x1 shapeCasts_S5000x1_S5000x1) broadcasts_S5000x1_S5000x256 (ix2 p k)) * x2 (ix2 k q) = _
  rw [bcast_col_apply, shapeCast_self]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the feature, degree and result windows are at block row t,
    block column 0; the weight window is always at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem pt_lt (t : Fin cfg0.N) : t.val < 10 := lt_of_lt_of_eq t.isLt N_0

/-- Row p of point t's block is row 5000·t + p of the array. -/
def row (t : Fin cfg0.N) (p : Fin 5000) : Fin 50000 :=
  ⟨t.val * 5000 + p.val, by have := pt_lt t; have := p.isLt; omega⟩

/-- The feature window's block at point t, read at (p, k), is the feature array at (5000·t + p, k). -/
theorem feat_blk (c : Dev nD) (t : Fin cfg0.N) (p : Fin 5000) (k : Fin 256) :
    iblk0 V c 0 t (ix2 p k) = V c main_arg0 (ix2 (row t p) k) := by
  obtain ⟨e0, e1, -⟩ := idx_facts t
  show V c main_arg0 (((cfg0.win 0).blk t).view.emb (ix2 p k)) = V c main_arg0 (ix2 (row t p) k)
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 256 + 1 * k.val = k.val; omega

/-- The weight window's block is the whole weight array at every point. -/
theorem wt_blk (c : Dev nD) (t : Fin cfg0.N) (k : Fin 256) (q : Fin 64) :
    iblk0 V c 1 t (ix2 k q) = V c main_arg1 (ix2 k q) := by
  obtain ⟨-, -, e2, e3, -⟩ := idx_facts t
  show V c main_arg1 (((cfg0.win 1).blk t).view.emb (ix2 k q)) = V c main_arg1 (ix2 k q)
  refine congrArg (V c main_arg1) (funext fun a => Fin.ext ?_)
  match a with
  | ⟨0, _⟩ => show win0_1.index t (0 : Fin 2) * 256 + 1 * k.val = k.val; omega
  | ⟨1, _⟩ => show win0_1.index t (1 : Fin 2) * 64 + 1 * q.val = q.val; omega

/-- The degree window's block at point t, read at (p, 0), is the degree column at (5000·t + p, 0). -/
theorem deg_blk (c : Dev nD) (t : Fin cfg0.N) (p : Fin 5000) :
    iblk0 V c 2 t (ix2 p (0 : Fin 1)) = V c main_v13 (ix2 (row t p) (0 : Fin 1)) := by
  obtain ⟨-, -, -, -, e4, e5, -⟩ := idx_facts t
  show V c main_v13 (((cfg0.win 2).blk t).view.emb (ix2 p (0 : Fin 1))) = V c main_v13 (ix2 (row t p) (0 : Fin 1))
  refine congrArg (V c main_v13) (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

/-- An element (p, q) of the result window's block at point t sits in the result array at (5000·t + p, q). -/
theorem out_emb (t : Fin cfg0.N) (p : Fin 5000) (q : Fin 64) :
    ((cfg0.win 3).blk t).view.emb (ix2 p q) = ix2 (row t p) q := by
  obtain ⟨-, -, -, -, -, -, e6, e7⟩ := idx_facts t
  refine funext fun a => Fin.ext ?_
  match a with
  | ⟨0, _⟩ => show win0_3.index t (0 : Fin 2) * 5000 + 1 * p.val = t.val * 5000 + p.val; omega
  | ⟨1, _⟩ => show win0_3.index t (1 : Fin 2) * 64 + 1 * q.val = q.val; omega

/-- What point t writes back is block t of `proj` of the arrays the region was entered with. -/
theorem flushed_eq (c : Dev nD) (t : Fin cfg0.N) :
    (dat0 (F := Ideal) V c).flushed 3 t
      = ((cfg0.win 3).blk t).view.read (Elt Ideal) (Cert.GraphConv.proj (V c main_arg0) (V c main_arg1) (V c main_v13)) := by
  show (cfg0.win 3).cut (grid0.coords t) ((dat0 V c).after 3 t) = _
  rw [after0_3]
  unfold out0_3
  rw [View.canon_unit_zero hz]
  simp only [View.ld_unit_zero (S := S5000x256) hz, View.ld_unit_zero (S := S5000x1) hz, View.ld_unit_zero (S := S256x64) hz]
  funext j
  obtain ⟨p, q, rfl⟩ : ∃ (p : Fin 5000) (q : Fin 64), j = ix2 p q := ⟨j 0, j 1, eq_ix2 j⟩
  show k0_pay1 (iblk0 V c 0 t) (iblk0 V c 2 t) (iblk0 V c 1 t) (ix2 p q)
    = Cert.GraphConv.proj (V c main_arg0) (V c main_arg1) (V c main_v13) (((cfg0.win 3).blk t).view.emb (ix2 p q))
  rw [out_emb, Cert.GraphConv.proj_apply]
  refine (pay_apply _ _ _ p q).trans ?_
  refine Finset.sum_congr rfl fun k _ => ?_
  rw [feat_blk, deg_blk, wt_blk]

/-- An index of the result array is in point t's block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v14).slice (win0_3.rect t)).set ↔ _
  rw [View.set_slice_whole, Rect.mem_set_unit]
  exact Iff.rfl

/-- Every row r of the result lies in the block of point r / 5000. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have ht : (i 0).val / 5000 < cfg0.N := by show (i 0).val / 5000 < grid0.N; rw [N_0]; omega
  refine ⟨⟨(i 0).val / 5000, ht⟩, flush0_3 _, ?_⟩
  rw [mem_blk]
  obtain ⟨-, -, -, -, -, -, e6, e7⟩ := idx_facts ⟨(i 0).val / 5000, ht⟩
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    omega

/-- The result array after the region is `proj` of the arrays the region was entered with. -/
theorem final (c : Dev nD) :
    (dat0 (F := Ideal) V c).arrAt 3 cfg0.N = Cert.GraphConv.proj (V c main_arg0) (V c main_arg1) (V c main_v13) :=
  (dat0 V c).arrAt_eq_of_cover 3 _ (fun t _ => flushed_eq V c t) cover

end Cert.KernelIdeal.ProjValue

end
-- ==== Proof.PostValue.lean ====
/-
  The second dense stage of the graph convolution, read as one function of whole arrays.

  Grid point t loads rows 5000·t … 5000·t + 4999 of the aggregated features r, the same rows of the one-column
  degree factor d, and the one bias row b, and stores  r(i, j) · d(i) + b(j)  into the same rows of the result.
  Row i of the result lies in the block of point i / 5000, so the ten blocks cover the result, and after the
  last point the result array is `Cert.GraphConv.post r d b` of the three arrays as the region found them.
-/
import proofs.«113959_j51161650430038_1_alg».proof.Proof.Gen.KernelIdeal.Frame
import proofs.«113959_j51161650430038_1_alg».proof.Proof.Spec
import Idealize.ShloMosaic.Lib.Pipeline.Value
import Idealize.ShloMosaic.Lib.ValueIdx
import Idealize.ShloMosaic.Lib.ValueLayout

noncomputable section

namespace Cert.KernelIdeal.PostValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block access, however they are spelt. -/
theorem hz : (![0, 0] : Fin 2 → Nat) = fun _ => 0 := funext fun a => by fin_cases a <;> rfl

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- the payload at an index, over VARIABLES of the literal vector types -/
theorem pay_apply (x0 : Vec Ideal S5000x64 .f32) (x1 : Vec Ideal S5000x1 .f32) (x2 : Vec Ideal S1x64 .f32) (p : Fin 5000) (q : Fin 64) :
    k1_pay1 x0 x1 x2 (ix2 p q) = x0 (ix2 p q) * x1 (ix2 p (0 : Fin 1)) + x2 (ix2 (0 : Fin 1) q) := by
  unfold k1_pay1
  rw [addf_apply, mulf_apply, shapeCast_self, shapeCast_self, shapeCast_self, broadcastTo_a1_ab_apply, broadcastTo_1b_ab_apply]

/-- The printed index maps, decided over the grid: the three windows that move with the point sit at block row
    `t`, block column 0; the bias row's window stays at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the block of point `t` is a row of the array: `5000·t + p < 50000`. -/
theorem row_lt (t : Fin cfg1.N) (p : Fin 5000) : t.val * 5000 + p.val < 50000 := by
  have hN : grid1.N = 10 := N_1
  have ht : t.val < grid1.N := t.isLt
  have hp : p.val < 5000 := p.isLt
  omega

/-- Where the block of point `t` sits in its array, window by window: entry `(p, q)` of a block of the aggregated
    features, and of the result, is entry `(5000·t + p, q)` of the array; -/
theorem emb0 (t : Fin cfg1.N) (p : Fin 5000) (q : Fin 64) :
    ((cfg1.win 0).blk t).view.emb (ix2 p q) = ix2 (⟨t.val * 5000 + p.val, row_lt t p⟩ : Fin 50000) q := by
  obtain ⟨e0, e1, -, -, -, -, -, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 64 + 1 * q.val = q.val; omega

theorem emb3 (t : Fin cfg1.N) (p : Fin 5000) (q : Fin 64) :
    ((cfg1.win 3).blk t).view.emb (ix2 p q) = ix2 (⟨t.val * 5000 + p.val, row_lt t p⟩ : Fin 50000) q := by
  obtain ⟨-, -, -, -, -, -, e6, e7⟩ := idx_facts t
  funext a; apply Fin.ext
  match a with
  | ⟨0, _⟩ => show win1_3.index t (0 : Fin 2) * 5000 + 1 * p.val = t.val * 5000 + p.val; omega
  | ⟨1, _⟩ => show win1_3.index t (1 : Fin 2) * 64 + 1 * q.val = q.val; omega

/-- entry `(p, 0)` of a block of the degree column is entry `(5000·t + p, 0)` of the column; -/
theorem emb1 (t : Fin cfg1.N) (p : Fin 5000) :
    ((cfg1.win 1).blk t).view.emb (ix2 p (0 : Fin 1)) = ix2 (⟨t.val * 5000 + p.val, row_lt t p⟩ : Fin 50000) (0 : Fin 1) := by
  obtain ⟨-, -, e2, e3, -, -, -, -⟩ := idx_facts t
  funext a; apply Fin.ext
  match a with
  | ⟨0, _⟩ => show win1_1.index t (0 : Fin 2) * 5000 + 1 * p.val = t.val * 5000 + p.val; omega
  | ⟨1, _⟩ => show win1_1.index t (1 : Fin 2) * 1 + 1 * 0 = 0; omega

/-- and the bias row's one block is the whole row. -/
theorem emb2 (t : Fin cfg1.N) (q : Fin 64) :
    ((cfg1.win 2).blk t).view.emb (ix2 (0 : Fin 1) q) = ix2 (0 : Fin 1) q := by
  obtain ⟨-, -, -, -, e4, e5, -, -⟩ := idx_facts t
  funext a; apply Fin.ext
  match a with
  | ⟨0, _⟩ => show win1_2.index t (0 : Fin 2) * 1 + 1 * 0 = 0; omega
  | ⟨1, _⟩ => show win1_2.index t (1 : Fin 2) * 64 + 1 * q.val = q.val; omega

/-- WHAT POINT `t` WRITES BACK is block `t` of `post` of the three arrays as the region finds them. -/
theorem flushed_eq (c : Dev nD) (t : Fin cfg1.N) :
    (dat1 (F := Ideal) V c).flushed 3 t = ((cfg1.win 3).blk t).view.read (Elt Ideal) (Cert.GraphConv.post (V c main_v24) (V c main_v25) (V c main_v26)) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz, View.ld_unit_zero (S := S1x64) hz]
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (ix2 p q)
    = Cert.GraphConv.post (V c main_v24) (V c main_v25) (V c main_v26) (((cfg1.win 3).blk t).view.emb (ix2 p q))
  rw [pay_apply]
  have h0 : (iblk1 V c 0 t : Vec Ideal S5000x64 .f32) (ix2 p q)
      = V c main_v24 (ix2 (⟨t.val * 5000 + p.val, row_lt t p⟩ : Fin 50000) q) := by
    show V c main_v24 (((cfg1.win 0).blk t).view.emb (ix2 p q)) = _
    rw [emb0]
  have h1 : (iblk1 V c 1 t : Vec Ideal S5000x1 .f32) (ix2 p (0 : Fin 1))
      = V c main_v25 (ix2 (⟨t.val * 5000 + p.val, row_lt t p⟩ : Fin 50000) (0 : Fin 1)) := by
    show V c main_v25 (((cfg1.win 1).blk t).view.emb (ix2 p (0 : Fin 1))) = _
    rw [emb1]
  have h2 : (iblk1 V c 2 t : Vec Ideal S1x64 .f32) (ix2 (0 : Fin 1) q) = V c main_v26 (ix2 (0 : Fin 1) q) := by
    show V c main_v26 (((cfg1.win 2).blk t).view.emb (ix2 (0 : Fin 1) q)) = _
    rw [emb2]
  rw [h0, h1, h2, emb3, Cert.GraphConv.post_apply]

/-- An index of the result is in the block of point `t` iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v27).slice (win1_3.rect t)).set ↔ _
  rw [View.set_slice_whole, Rect.mem_set_unit]
  exact Iff.rfl

/-- THE BLOCKS COVER THE RESULT: row `r` lies in the block of point `r / 5000`, which is written back. -/
theorem cover (i : S50000x64.Idx) :
    ∃ t : Fin cfg1.N, (cfg1.win 3).flush t = true ∧ i ∈ ((cfg1.win 3).blk t).view.set := by
  have hN : grid1.N = 10 := N_1
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by show (i 0).val / 5000 < grid1.N; omega⟩, rfl⟩
  obtain ⟨-, -, -, -, -, -, e6, e7⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- THE RESULT ARRAY after the last point: `post` of the three arrays as the region finds them. -/
theorem final (c : Dev nD) :
    (dat1 (F := Ideal) V c).arrAt 3 cfg1.N = Cert.GraphConv.post (V c main_v24) (V c main_v25) (V c main_v26) :=
  (dat1 (F := Ideal) V c).arrAt_eq_of_cover 3 _ (fun t _ => flushed_eq V c t) cover

end Cert.KernelIdeal.PostValue

end
-- ==== Proof.RefBridge.lean ====
/-
  The reference program's two dense stages are the two specification functions.

  The reference carries a node's degree factor as a vector of length 50000 and spreads it by two broadcasts: first to a
  one-column matrix, then along the feature axis. The specification carries it as the one-column matrix itself. Read at
  an index (p, q) both are the vector at p, so
      proj x w (column of d) = (x scaled row by row by d) times w,
      post r (column of d) (row of b) = r scaled row by row by d, plus b spread over the rows.
  Each side is read at an index and the two readings are literally the same sums and products.
-/
import proofs.«113959_j51161650430038_1_alg».proof.Proof.Gen.ReferenceIdeal.Read
import proofs.«113959_j51161650430038_1_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.GraphConv

open Cert.ReferenceIdeal Cert.ReferenceIdeal.Gen Idealize.ShloMosaic Idealize.ShloMosaic.ValueIdx

/-! ## Small layout readings -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector of length 50000 spread to a one-column matrix reads, at `(a, u)`, the vector at `a`. -/
theorem bcast_vec_col_apply (x : S50000.Idx → α) (h : S50000.BroadcastsInDim S50000x1 (![0] : Fin 1 → Fin S50000x1.rank))
    (a : Fin 50000) (u : Fin 1) : broadcastInDim S50000x1 ![0] h x (ix2 a u) = x (ix1 a) :=
  broadcastInDim_apply _ h x (ix2 a u) (ix1 a) (fun ax => match ax with
    | ⟨0, _⟩ => by show a.val = if (50000 : Nat) = 1 then 0 else a.val; rw [if_neg (by decide)])

/-- A one-column matrix spread along 256 columns reads, at `(a, k)`, its one column at row `a`. -/
theorem bcast_col_256_apply (y : S50000x1.Idx → α)
    (h : S50000x1.BroadcastsInDim S50000x256 (![0, 1] : Fin 2 → Fin S50000x256.rank)) (a : Fin 50000) (k : Fin 256) :
    broadcastInDim S50000x256 ![0, 1] h y (ix2 a k) = y (ix2 a (0 : Fin 1)) :=
  broadcastInDim_apply _ h y (ix2 a k) (ix2 a (0 : Fin 1)) (fun ax => match ax with
    | ⟨0, _⟩ => by show a.val = if (50000 : Nat) = 1 then 0 else a.val; rw [if_neg (by decide)]
    | ⟨1, _⟩ => by show 0 = if (1 : Nat) = 1 then 0 else k.val; rw [if_pos rfl])

/-- A one-column matrix spread along 64 columns reads, at `(a, q)`, its one column at row `a`. -/
theorem bcast_col_64_apply (y : S50000x1.Idx → α)
    (h : S50000x1.BroadcastsInDim S50000x64 (![0, 1] : Fin 2 → Fin S50000x64.rank)) (a : Fin 50000) (q : Fin 64) :
    broadcastInDim S50000x64 ![0, 1] h y (ix2 a q) = y (ix2 a (0 : Fin 1)) :=
  broadcastInDim_apply _ h y (ix2 a q) (ix2 a (0 : Fin 1)) (fun ax => match ax with
    | ⟨0, _⟩ => by show a.val = if (50000 : Nat) = 1 then 0 else a.val; rw [if_neg (by decide)]
    | ⟨1, _⟩ => by show 0 = if (1 : Nat) = 1 then 0 else q.val; rw [if_pos rfl])

/-- A vector of length 64 spread to a one-row matrix reads, at `(u, q)`, the vector at `q`. -/
theorem bcast_vec_row_apply (x : S64.Idx → α) (h : S64.BroadcastsInDim S1x64 (![1] : Fin 1 → Fin S1x64.rank))
    (u : Fin 1) (q : Fin 64) : broadcastInDim S1x64 ![1] h x (ix2 u q) = x (ix1 q) :=
  broadcastInDim_apply _ h x (ix2 u q) (ix1 q) (fun ax => match ax with
    | ⟨0, _⟩ => by show q.val = if (64 : Nat) = 1 then 0 else q.val; rw [if_neg (by decide)])

/-- A one-row matrix spread over 50000 rows reads, at `(a, q)`, its one row at column `q`. -/
theorem bcast_row_rows_apply (y : S1x64.Idx → α)
    (h : S1x64.BroadcastsInDim S50000x64 (![0, 1] : Fin 2 → Fin S50000x64.rank)) (a : Fin 50000) (q : Fin 64) :
    broadcastInDim S50000x64 ![0, 1] h y (ix2 a q) = y (ix2 (0 : Fin 1) q) :=
  broadcastInDim_apply _ h y (ix2 a q) (ix2 (0 : Fin 1) q) (fun ax => match ax with
    | ⟨0, _⟩ => by show 0 = if (1 : Nat) = 1 then 0 else a.val; rw [if_pos rfl]
    | ⟨1, _⟩ => by show q.val = if (64 : Nat) = 1 then 0 else q.val; rw [if_neg (by decide)])

end Layout

/-! ## The two casts the specification's arguments are written with -/

/-- a vector cast to a one-column matrix reads, at (p, 0), the vector at p -/
theorem col_apply (p : FVec Ideal S50000 .f32) (h : S50000.ShapeCasts S50000x1) (a : Fin 50000) :
    shapeCast S50000x1 p h (ix2 a (0 : Fin 1)) = p (ix1 a) :=
  shapeCast_a_a1_apply p h a 0

/-- a vector cast to a one-row matrix reads, at (0, q), the vector at q -/
theorem row_apply (b : FVec Ideal S64 .f32) (h : S64.ShapeCasts S1x64) (q : Fin 64) :
    shapeCast S1x64 b h (ix2 (0 : Fin 1) q) = b (ix1 q) :=
  shapeCast_a_1a_apply b h 0 q

/-! ## The host's matrix product at an index -/

/-- The reference's product of a 50000×256 by a 256×64 matrix reads, at (a, q), the sum over the contracted coordinate
    of the products of the entries: its dimension numbers are the plain ones. -/
theorem ref_dot_apply (A : FVec Ideal S50000x256 .f32) (B : FVec Ideal S256x64 .f32) (a : Fin 50000) (q : Fin 64) :
    Host.dotGeneral dot_S50000x256_S256x64_S50000x64_1_0_0_1_n_n none A B (ix2 a q)
      = ∑ k : Fin 256, A (ix2 a k) * B (ix2 k q) :=
  StackMember.dotGeneral_plain_apply (m := 50000) (n := 64) (k := 256) none A B a q

/-! ## The two stages -/

theorem proj_eq_ref (x0 : FVec Ideal S50000x256 .f32) (x1 : FVec Ideal S256x64 .f32) (p : FVec Ideal S50000 .f32)
    (h : S50000.ShapeCasts S50000x1) :
    proj x0 x1 (shapeCast S50000x1 p h)
      = Host.dotGeneral dot_S50000x256_S256x64_S50000x64_1_0_0_1_n_n none
          (mulf x0 (broadcastInDim S50000x256 ![0, 1] bcast_S50000x1_S50000x256_0_1
            (broadcastInDim S50000x1 ![0] bcast_S50000_S50000x1_0 p))) x1 := by
  funext i
  obtain ⟨a, q, rfl⟩ : ∃ (a : Fin 50000) (q : Fin 64), i = ix2 a q := ⟨i 0, i 1, eq_ix2 i⟩
  rw [proj_apply, ref_dot_apply]
  refine Finset.sum_congr rfl fun k _ => ?_
  rw [mulf_apply, bcast_col_256_apply, bcast_vec_col_apply, col_apply]

theorem post_eq_ref (r : FVec Ideal S50000x64 .f32) (p : FVec Ideal S50000 .f32) (b : FVec Ideal S64 .f32)
    (h : S50000.ShapeCasts S50000x1) (h' : S64.ShapeCasts S1x64) :
    post r (shapeCast S50000x1 p h) (shapeCast S1x64 b h')
      = addf (mulf r (broadcastInDim S50000x64 ![0, 1] bcast_S50000x1_S50000x64_0_1
            (broadcastInDim S50000x1 ![0] bcast_S50000_S50000x1_0 p)))
          (broadcastInDim S50000x64 ![0, 1] bcast_S1x64_S50000x64_0_1 (broadcastInDim S1x64 ![1] bcast_S64_S1x64_1 b)) := by
  funext i
  obtain ⟨a, q, rfl⟩ : ∃ (a : Fin 50000) (q : Fin 64), i = ix2 a q := ⟨i 0, i 1, eq_ix2 i⟩
  rw [post_apply, addf_apply, mulf_apply, bcast_col_64_apply, bcast_vec_col_apply, bcast_row_rows_apply,
    bcast_vec_row_apply, col_apply, row_apply]

end Cert.GraphConv

end
-- ==== Proof.Vocab.lean ====
/-
  The host operations the two programs share, in one vocabulary.

  Both programs compute the two degree factors, the gather's index column and the aggregation with the same host
  operations on the same literals; only the names of the shape and dimension records differ, and those records have
  the same fields. So the kernel program's terms are the reference's staged terms.
-/
import proofs.«113959_j51161650430038_1_alg».proof.Proof.HostReads
import proofs.«113959_j51161650430038_1_alg».proof.Proof.Gen.ReferenceIdeal.Read

set_option maxRecDepth 16384

noncomputable section

namespace Cert.Vocab

open Idealize.ShloMosaic

/-- The source-side degree factor is the reference's `out_deg ** -0.5`. -/
theorem deg_src (x3 : (⟨Cert.KernelIdeal.S800000, .i32⟩ : BufTy).Contents (Elt Ideal)) :
    Cert.KernelIdeal.HostValue.deg (F := Ideal) x3 = Cert.ReferenceIdeal.Read.val_main_v10 (F := Ideal) x3 := rfl

/-- The destination-side degree factor is the reference's `in_deg ** -0.5`. -/
theorem deg_dst (x4 : (⟨Cert.KernelIdeal.S800000, .i32⟩ : BufTy).Contents (Elt Ideal)) :
    Cert.KernelIdeal.HostValue.deg (F := Ideal) x4 = Cert.ReferenceIdeal.Read.val_main_v26 (F := Ideal) x4 := rfl

/-- The aggregation of any projected rows is the reference's gather and scatter-add of them. -/
theorem agg_ref (h : (⟨Cert.KernelIdeal.S50000x64, .f32⟩ : BufTy).Contents (Elt Ideal))
    (x3 x4 : (⟨Cert.KernelIdeal.S800000, .i32⟩ : BufTy).Contents (Elt Ideal)) :
    (Cert.KernelIdeal.HostValue.agg (F := Ideal) h x3 x4 : FVec Ideal Cert.ReferenceIdeal.S50000x64 .f32)
      = Host.scatterAdd (F := Ideal) (φ := .f32) Cert.ReferenceIdeal.scatter_S50000x64_S800000x1_S800000x64_1_0_0_1 (Cert.ReferenceIdeal.Read.val_main_v22 (F := Ideal))
          (Cert.ReferenceIdeal.Read.val_main_v23 (F := Ideal) x4)
          (Host.gather (α := Ideal .f32) Cert.ReferenceIdeal.gather_S50000x64_S800000x1_S800000x64_1_0_n_n_0_1_164
            (h : FVec Ideal Cert.ReferenceIdeal.S50000x64 .f32) (Cert.ReferenceIdeal.Read.val_main_v20 (F := Ideal) x3)) := rfl

end Cert.Vocab

end
-- ==== Proof.Bridge.lean ====
/-
  The idealized kernel program's result is the reference's result, as one function of the launch memory.

  Composition: the rescaling region's result array is `post` of the three arrays it was entered with; those are
  the aggregate of the projection region's result, the destination-side degree factor as a column, and the bias as
  a row; the projection region's result is `proj` of the features, the weights and the source-side degree factor
  as a column. The reference computes the same two dense stages with a product of matrices and with broadcasts, on
  the same host operations around them: `proj` is its scaled product, `post` its rescale-and-add, and the
  aggregation and the degree factors are literally its own.
-/
import proofs.«113959_j51161650430038_1_alg».proof.Proof.HostReads
import proofs.«113959_j51161650430038_1_alg».proof.Proof.ProjValue
import proofs.«113959_j51161650430038_1_alg».proof.Proof.PostValue
import proofs.«113959_j51161650430038_1_alg».proof.Proof.RefBridge
import proofs.«113959_j51161650430038_1_alg».proof.Proof.Vocab

set_option maxRecDepth 16384

noncomputable section

namespace Cert.Bridge

open Cert.KernelIdeal Cert.KernelIdeal.Gen Cert.KernelIdeal.HostValue
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result array after the rescaling region, as one term of the launch memory. -/
theorem kernel_value (c : Dev nD) :
    (dat1 (F := Ideal) (V7 m ρ) c).arrAt 3 cfg1.N
      = Cert.GraphConv.post
          (agg (Cert.GraphConv.proj (m ((c : Thread nD τ).loc main_arg0)) (m ((c : Thread nD τ).loc main_arg1))
              (shapeCast S50000x1 (deg (m ((c : Thread nD τ).loc main_arg3))) shapeCasts_S50000_S50000x1))
            (m ((c : Thread nD τ).loc main_arg3)) (m ((c : Thread nD τ).loc main_arg4)))
          (shapeCast S50000x1 (deg (m ((c : Thread nD τ).loc main_arg4))) shapeCasts_S50000_S50000x1)
          (shapeCast S1x64 (m ((c : Thread nD τ).loc main_arg2)) shapeCasts_S64_S1x64) := by
  rw [PostValue.final (V7 m ρ) c, V7_v24, V7_v25, V7_v26, ProjValue.final (V5 m ρ) c, V5_arg0, V5_arg1, V5_v13]

/-- That term is the reference's result term of the same five arguments. -/
theorem value_eq_ref (x0 : (⟨S50000x256, .f32⟩ : BufTy).Contents (Elt Ideal)) (x1 : (⟨S256x64, .f32⟩ : BufTy).Contents (Elt Ideal))
    (x2 : (⟨S64, .f32⟩ : BufTy).Contents (Elt Ideal)) (x3 x4 : (⟨S800000, .i32⟩ : BufTy).Contents (Elt Ideal)) :
    Cert.GraphConv.post
        (agg (Cert.GraphConv.proj x0 x1 (shapeCast S50000x1 (deg x3) shapeCasts_S50000_S50000x1)) x3 x4)
        (shapeCast S50000x1 (deg x4) shapeCasts_S50000_S50000x1)
        (shapeCast S1x64 x2 shapeCasts_S64_S1x64)
      = Cert.ReferenceIdeal.Read.val_main_v32 (F := Ideal) x0 x1 x2 x3 x4 := by
  rw [Cert.Vocab.deg_src x3, Cert.Vocab.deg_dst x4]
  rw [Cert.GraphConv.proj_eq_ref, Cert.GraphConv.post_eq_ref, Cert.Vocab.agg_ref]
  rfl

end Cert.Bridge

end
-- ==== Proof.lean ====
/-
  A graph convolution with symmetric degree normalization, on 50000 nodes and 800000 edges:
      out = segment_sum( ((feat · d_out) @ weight)[src], dst ) · d_in + bias,
  where d_out and d_in are the source- and destination-side degree factors (the node's count among the edge
  indices, clipped below at one, to the power −1/2), each spread along a node's row.

  The kernel program computes the two dense stages in two tiled regions — the row-scaled projection
  (feat · d_out) @ weight, ten blocks of 5000 rows, the product taken into a zero accumulator after a change of
  float format that is the identity at the ideal values; and the rescale-and-add  r · d_in + bias, again ten
  blocks of 5000 rows — and everything else (the degree counts, the clip, the power, the gather and the
  scatter-add) by the same host operations as the reference. The reference computes the dense stages as one
  product of whole matrices and one whole-array multiply-add over broadcasts.

  At the ideal values the two results are one function of the five arguments: each region's result array is its
  stage's whole-array function of the arrays it was entered with (the blocks are restrictions of that function
  and cover the array); those functions are the reference's product and multiply-add read index by index; and the
  host operations between and around them are the reference's own, applied to equal operands. No law of the
  extended reals is used beyond reading both sides at an index: the sums and products are literally the same,
  so the finiteness of the inputs is never opened.

  The three frames: the two kernel programs' are the generated frame certificates; the reference's is its
  generated run with the result dropped. The ideal pass rewrote nothing, so `preserves` is `True`.
-/
import proofs.«113959_j51161650430038_1_alg».proof.Defs
import proofs.«113959_j51161650430038_1_alg».proof.Proof.Gen.Kernel
import proofs.«113959_j51161650430038_1_alg».proof.Proof.Gen.Kernel.Frame
import proofs.«113959_j51161650430038_1_alg».proof.Proof.Gen.KernelIdeal
import proofs.«113959_j51161650430038_1_alg».proof.Proof.Gen.KernelIdeal.Frame
import proofs.«113959_j51161650430038_1_alg».proof.Proof.Gen.ReferenceIdeal
import proofs.«113959_j51161650430038_1_alg».proof.Proof.Gen.ReferenceIdeal.Run
import proofs.«113959_j51161650430038_1_alg».proof.Proof.Gen.ReferenceIdeal.Read
import proofs.«113959_j51161650430038_1_alg».proof.Proof.Gen.Pre_finite_inputs
import proofs.«113959_j51161650430038_1_alg».proof.Proof.KernelRun
import proofs.«113959_j51161650430038_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result's value dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the five arguments both programs end with the same result: the reference's result
    term of the arguments. The kernel program's run ends at the rescaling region's result array, which is that term
    (`Cert.Bridge.kernel_value`, `Cert.Bridge.value_eq_ref`); the reference's run ends at the same term of its own
    arguments, which are the kernel program's. -/
theorem algebraic : Cert.algebraic_KernelIdeal_ReferenceIdeal := by
  intro m ρ m' ρ' _ hagree
  refine ⟨fun c => Cert.ReferenceIdeal.Read.val_main_v32 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans ((Cert.Bridge.kernel_value m ρ c).trans (Cert.Bridge.value_eq_ref _ _ _ _ _)), (h c).2⟩)
      (Cert.KernelIdeal.RunValue.run_named (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v32_eq, (hagree c).1, (hagree c).2.1, (hagree c).2.2.1,
      (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
